-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x8192 : Shape := ⟨2, ![1024, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn_part1 {F : FTy → Type} [FloatOps F] (main_arg4 : FVec F S1024x8192 .f32) (main_v13 : IVec S_ 1) (main_v16 : IVec S1024x8192 1) : IVec S_ 1 :=
  let main_c_5 : IVec S_ 1 := constantI S_ 1 1#1
  let main_v17 : IVec S_ 1 := (fun x v => Host.reduce IntOp.andi x v reducesTo_S1024x8192_S_d0_1 h_S_) main_v16 main_c_5
  let main_v18 : IVec S_ 1 := andi main_v13 main_v17
  let main_v19 : FVec F S1024x8192 .f32 := Host.absf main_arg4
  let main_cst_6 : FVec F S_ .f32 := constant S_ .f32 0x7F800000#32
  let main_v20 : FVec F S1024x8192 .f32 := broadcastInDim S1024x8192 ![] bcast_S_S1024x8192 main_cst_6
  let main_v21 : IVec S1024x8192 1 := cmpf .olt main_v19 main_v20
  let main_c_7 : IVec S_ 1 := constantI S_ 1 1#1
  let main_v22 : IVec S_ 1 := (fun x v => Host.reduce IntOp.andi x v reducesTo_S1024x8192_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S1024x8192 .f32) (main_arg4 : FVec F S1024x8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x8192 .f32 := Host.absf main_arg3
  let main_cst_4 : FVec F S_ .f32 := constant S_ .f32 0x7F800000#32
  let main_v15 : FVec F S1024x8192 .f32 := broadcastInDim S1024x8192 ![] bcast_S_S1024x8192 main_cst_4
  let main_v16 : IVec S1024x8192 1 := cmpf .olt main_v14 main_v15
  fn_part1 (F := F) main_arg4 main_v13 main_v16
-- ==== Kernel.lean ====
abbrev S8192x1024 : Shape := ⟨2, ![8192, 1024]⟩
abbrev S1024x8192 : Shape := ⟨2, ![1024, 8192]⟩
abbrev S128x1024 : Shape := ⟨2, ![128, 1024]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S1024x8192, .f32⟩
  | .hbm, ⟨5, _⟩ => ⟨S1024x8192, .bf16⟩
  | .hbm, ⟨6, _⟩ => ⟨S1024x8192, .bf16⟩
  | .hbm, ⟨7, _⟩ => ⟨S8192x1024, .f32⟩
  | .hbm, ⟨8, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x8192, .bf16⟩
  | .local _ .vmem, ⟨7, _⟩ => ⟨S1024x8192, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x8192_S1024x1024_0_0 : ∀ a, (![0, 0] : Fin 2 → Nat) a + S1024x1024.size a ≤ S1024x8192.size a
  h_S1024x1024 : 0 < S1024x1024.numel
  shapeCasts_S1024x1024_S1024x1024 : S1024x1024.ShapeCasts S1024x1024
  inb_S1024x8192_S1024x1024_0_1024 : ∀ a, (![0, 1024] : Fin 2 → Nat) a + S1024x1024.size a ≤ S1024x8192.size a
  inb_S1024x8192_S1024x1024_0_2048 : ∀ a, (![0, 2048] : Fin 2 → Nat) a + S1024x1024.size a ≤ S1024x8192.size a
  inb_S1024x8192_S1024x1024_0_3072 : ∀ a, (![0, 3072] : Fin 2 → Nat) a + S1024x1024.size a ≤ S1024x8192.size a
  inb_S1024x8192_S1024x1024_0_4096 : ∀ a, (![0, 4096] : Fin 2 → Nat) a + S1024x1024.size a ≤ S1024x8192.size a
  inb_S1024x8192_S1024x1024_0_5120 : ∀ a, (![0, 5120] : Fin 2 → Nat) a + S1024x1024.size a ≤ S1024x8192.size a
  inb_S1024x8192_S1024x1024_0_6144 : ∀ a, (![0, 6144] : Fin 2 → Nat) a + S1024x1024.size a ≤ S1024x8192.size a
  inb_S1024x8192_S1024x1024_0_7168 : ∀ a, (![0, 7168] : Fin 2 → Nat) a + S1024x1024.size a ≤ S1024x8192.size a
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x8192.size a ≤ S1024x8192.size a
  hwx0_3 : ∀ i : grid0.Coords, EltTy.bits .bf16 = 32 ∨ (Rect.block (s := S1024x8192) S1024x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x8192.size a ≤ S1024x8192.size a
  hwx0_4 : ∀ i : grid0.Coords, EltTy.bits .bf16 = 32 ∨ (Rect.block (s := S1024x8192) S1024x8192.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S8192x1024.size a
  hwx0_5 : ∀ i : grid0.Coords, EltTy.bits .f32 = 32 ∨ (Rect.block (s := S8192x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x8192 : Shape := ⟨2, ![1024, 8192]⟩
abbrev S8192x8192 : Shape := ⟨2, ![8192, 8192]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S1024x8192, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_cst : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call1_cst : Ref sig .tc := ⟨.hbm, 46, rfl⟩
abbrev main_call1_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]

class Facts₀ : Prop where
  slices_S8192x8192_S8192x1024_0_0 : S8192x8192.Slices ![0, 0] S8192x1024
  slices_S8192x8192_S8192x1024_0_1024 : S8192x8192.Slices ![0, 1024] S8192x1024
  slices_S8192x8192_S8192x1024_0_2048 : S8192x8192.Slices ![0, 2048] S8192x1024
  slices_S8192x8192_S8192x1024_0_3072 : S8192x8192.Slices ![0, 3072] S8192x1024
  slices_S8192x8192_S8192x1024_0_4096 : S8192x8192.Slices ![0, 4096] S8192x1024
  slices_S8192x8192_S8192x1024_0_5120 : S8192x8192.Slices ![0, 5120] S8192x1024
  slices_S8192x8192_S8192x1024_0_6144 : S8192x8192.Slices ![0, 6144] S8192x1024
  slices_S8192x8192_S8192x1024_0_7168 : S8192x8192.Slices ![0, 7168] S8192x1024
  bcast_S_S8192x1024 : S_.BroadcastsInDim S8192x1024 (![] : Fin 0 → Fin S8192x1024.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.CellSpec.lean ====
/-
  The cell, as mathematics.

  One step of the cell takes an input batch x, the previous hidden state m and the previous cell state c — each an
  8192 × 1024 array — and two 1024 × 8192 weight matrices.  Both weight products are cut into eight column panels of
  width 1024.  Writing, for panel g,

      X_g[r, q] = Σ_k x[r, k] · W_x[k, 1024·g + q],        M_g[r, q] = Σ_k m[r, k] · W_m[k, 1024·g + q],

  the new cell state and new hidden state are, entry by entry,

      new_c = tanh (tanh (σ(X_0 + M_0) · relu (X_1 + M_1)) + c) · tanh (σ(X_2 + M_2) + relu (X_3 · M_3)),
      new_m = tanh (new_c · tanh (tanh (tanh (X_4 + M_4) · σ(X_5 + M_5)) + σ(tanh (X_6 + M_6) + σ(X_7 + M_7)))),

  with σ the logistic function and relu v = max v 0.  Everything is read over the extended reals, where each of these
  operations is total; no finiteness of the data is used anywhere, because both programs form the same sums of the same
  products and apply the same functions in the same order.

  This file states the panel sums (`panel`), the two entry functions (`cellState`, `hidden`) and the two whole arrays
  (`newC`, `newM`), and one fact about panels: a band of rows of the left factor gives the same band of the panel.
-/
import Idealize.ShloMosaic.PureOps.Ideal
import Idealize.ShloMosaic.Lib.ValueIdx

noncomputable section

namespace Cert.NasCell

open Idealize.ShloMosaic Idealize.ShloMosaic.ValueIdx

/-- Entry (r, q) of the column panel starting at column `off` of the product a · w: the inner product of row r of a
    with column `off + q` of w.  The number of rows R of the left factor is free: the whole batch has 8192, one row
    band 128. -/
def panel {R : Nat} (a : (⟨2, ![R, 1024]⟩ : Shape).Idx → EReal) (w : (⟨2, ![1024, 8192]⟩ : Shape).Idx → EReal)
    (off : Nat) (h : off + 1024 ≤ 8192) (r : Fin R) (q : Fin 1024) : EReal :=
  ∑ k : Fin 1024, a (ix2 r k) * w (ix2 k ⟨off + q.val, by have := q.isLt; omega⟩)

/-- If `b` is the band of rows `base, base + 1, …` of `a`, a panel of b · w is that band of the panel of a · w. -/
theorem panel_band {R R' : Nat} (a : (⟨2, ![R, 1024]⟩ : Shape).Idx → EReal) (b : (⟨2, ![R', 1024]⟩ : Shape).Idx → EReal)
    (w : (⟨2, ![1024, 8192]⟩ : Shape).Idx → EReal) (off : Nat) (h : off + 1024 ≤ 8192) (r' : Fin R') (r : Fin R)
    (q : Fin 1024) (hb : ∀ k : Fin 1024, b (ix2 r' k) = a (ix2 r k)) :
    panel b w off h r' q = panel a w off h r q := by
  unfold panel
  exact Finset.sum_congr rfl fun k _ => by rw [hb k]

/-- relu, with the zero spelt as the word both programs print. -/
def relu (v : EReal) : EReal := max v (Ideal.ofBits .f32 0x00000000#32)

/-- One entry of the new cell state from the first four panels' entries of both products and the old cell state. -/
def cellState (x0 m0 x1 m1 x2 m2 x3 m3 c : EReal) : EReal :=
  Ideal.tanh (Ideal.tanh (Ideal.logistic (x0 + m0) * relu (x1 + m1)) + c)
    * Ideal.tanh (Ideal.logistic (x2 + m2) + relu (x3 * m3))

/-- One entry of the new hidden state from the new cell state's entry and the last four panels' entries. -/
def hidden (nc x4 m4 x5 m5 x6 m6 x7 m7 : EReal) : EReal :=
  Ideal.tanh (nc * Ideal.tanh (Ideal.tanh (Ideal.tanh (x4 + m4) * Ideal.logistic (x5 + m5))
    + Ideal.logistic (Ideal.tanh (x6 + m6) + Ideal.logistic (x7 + m7))))

variable {R : Nat}

/-- The new cell state at row r, column q, for a batch (or a band of it) of R rows. -/
def newCAt (x m c : (⟨2, ![R, 1024]⟩ : Shape).Idx → EReal) (wm wx : (⟨2, ![1024, 8192]⟩ : Shape).Idx → EReal)
    (r : Fin R) (q : Fin 1024) : EReal :=
  cellState (panel x wx 0 (by omega) r q) (panel m wm 0 (by omega) r q)
    (panel x wx 1024 (by omega) r q) (panel m wm 1024 (by omega) r q)
    (panel x wx 2048 (by omega) r q) (panel m wm 2048 (by omega) r q)
    (panel x wx 3072 (by omega) r q) (panel m wm 3072 (by omega) r q)
    (c (ix2 r q))

/-- The new hidden state at row r, column q. -/
def newMAt (x m c : (⟨2, ![R, 1024]⟩ : Shape).Idx → EReal) (wm wx : (⟨2, ![1024, 8192]⟩ : Shape).Idx → EReal)
    (r : Fin R) (q : Fin 1024) : EReal :=
  hidden (newCAt x m c wm wx r q)
    (panel x wx 4096 (by omega) r q) (panel m wm 4096 (by omega) r q)
    (panel x wx 5120 (by omega) r q) (panel m wm 5120 (by omega) r q)
    (panel x wx 6144 (by omega) r q) (panel m wm 6144 (by omega) r q)
    (panel x wx 7168 (by omega) r q) (panel m wm 7168 (by omega) r q)

/-- The new cell state as a whole array. -/
def newC (x m c : (⟨2, ![R, 1024]⟩ : Shape).Idx → EReal) (wm wx : (⟨2, ![1024, 8192]⟩ : Shape).Idx → EReal) :
    (⟨2, ![R, 1024]⟩ : Shape).Idx → EReal := fun i => newCAt x m c wm wx (i 0) (i 1)

/-- The new hidden state as a whole array. -/
def newM (x m c : (⟨2, ![R, 1024]⟩ : Shape).Idx → EReal) (wm wx : (⟨2, ![1024, 8192]⟩ : Shape).Idx → EReal) :
    (⟨2, ![R, 1024]⟩ : Shape).Idx → EReal := fun i => newMAt x m c wm wx (i 0) (i 1)

/-- Both arrays on a band of rows: if the band arrays xb, mb, cb are rows `base + ·` of x, m, c, then at a band entry
    they give the whole arrays' entry. -/
theorem newCAt_band {R' : Nat} (x m c : (⟨2, ![R, 1024]⟩ : Shape).Idx → EReal)
    (xb mb cb : (⟨2, ![R', 1024]⟩ : Shape).Idx → EReal) (wm wx : (⟨2, ![1024, 8192]⟩ : Shape).Idx → EReal)
    (r' : Fin R') (r : Fin R) (q : Fin 1024)
    (hx : ∀ k : Fin 1024, xb (ix2 r' k) = x (ix2 r k)) (hm : ∀ k : Fin 1024, mb (ix2 r' k) = m (ix2 r k))
    (hc : cb (ix2 r' q) = c (ix2 r q)) :
    newCAt xb mb cb wm wx r' q = newCAt x m c wm wx r q := by
  unfold newCAt
  rw [panel_band x xb wx 0 _ r' r q hx, panel_band m mb wm 0 _ r' r q hm,
    panel_band x xb wx 1024 _ r' r q hx, panel_band m mb wm 1024 _ r' r q hm,
    panel_band x xb wx 2048 _ r' r q hx, panel_band m mb wm 2048 _ r' r q hm,
    panel_band x xb wx 3072 _ r' r q hx, panel_band m mb wm 3072 _ r' r q hm, hc]

theorem newMAt_band {R' : Nat} (x m c : (⟨2, ![R, 1024]⟩ : Shape).Idx → EReal)
    (xb mb cb : (⟨2, ![R', 1024]⟩ : Shape).Idx → EReal) (wm wx : (⟨2, ![1024, 8192]⟩ : Shape).Idx → EReal)
    (r' : Fin R') (r : Fin R) (q : Fin 1024)
    (hx : ∀ k : Fin 1024, xb (ix2 r' k) = x (ix2 r k)) (hm : ∀ k : Fin 1024, mb (ix2 r' k) = m (ix2 r k))
    (hc : cb (ix2 r' q) = c (ix2 r q)) :
    newMAt xb mb cb wm wx r' q = newMAt x m c wm wx r q := by
  unfold newMAt
  rw [newCAt_band x m c xb mb cb wm wx r' r q hx hm hc,
    panel_band x xb wx 4096 _ r' r q hx, panel_band m mb wm 4096 _ r' r q hm,
    panel_band x xb wx 5120 _ r' r q hx, panel_band m mb wm 5120 _ r' r q hm,
    panel_band x xb wx 6144 _ r' r q hx, panel_band m mb wm 6144 _ r' r q hm,
    panel_band x xb wx 7168 _ r' r q hx, panel_band m mb wm 7168 _ r' r q hm]

end Cert.NasCell

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.RefCell.lean ====
/-
  The reference program, read entry by entry.

  The reference forms the two full products m · W_m and x · W_x (8192 × 8192 each), cuts each into eight column panels
  by slicing, and applies the cell's functions to whole arrays.  Read at one entry (p, q) of an 8192 × 1024 array, a
  slice at column offset `off` of a product is the inner product of row p with column `off + q` — the panel sum of the
  specification —, the logistic function appears spelt 1 / (1 + e^(-v)) with the literal 1.0, and relu as the maximum with
  a broadcast zero.  So the reference's two results are the specification's two arrays.
-/
import proofs.«103168_j14834817040407_2_alg».proof.Proof.Gen.ReferenceIdeal.Read
import proofs.«103168_j14834817040407_2_alg».proof.Proof.CellSpec
import proofs.«103168_j14834817040407_2_alg».proof.Proof.LibLogistic

noncomputable section

namespace Cert.ReferenceIdeal.Cell

open Cert.ReferenceIdeal Cert.ReferenceIdeal.Read Idealize.ShloMosaic Idealize.ShloMosaic.ValueIdx Cert.NasCell

variable (x0 x1 x2 : (⟨S8192x1024, .f32⟩ : BufTy).Contents (Elt Ideal)) (x3 x4 : (⟨S1024x8192, .f32⟩ : BufTy).Contents (Elt Ideal))
variable (p : Fin 8192) (q : Fin 1024)

/-! ## The two products at an entry of a panel -/

/-- The product m · W_m at an entry whose row is p and whose column is `off + q` is the panel sum. -/
theorem prodM_at (j : S8192x8192.Idx) (off : Nat) (h : off + 1024 ≤ 8192) (h0 : (j 0).val = p.val)
    (h1 : (j 1).val = off + q.val) : val_main_v0 (F := Ideal) x1 x3 j = panel x1 x3 off h p q := by
  rw [val_main_v0_apply]
  unfold panel
  refine Finset.sum_congr rfl fun k _ => ?_
  have el : lidx_main_v0 j k = ix2 p k := funext fun a => Fin.ext (by
    match a with
    | ⟨0, _⟩ => exact h0
    | ⟨1, _⟩ => rfl)
  have er : ridx_main_v0 j k = ix2 k ⟨off + q.val, by have := q.isLt; omega⟩ := funext fun a => Fin.ext (by
    match a with
    | ⟨0, _⟩ => rfl
    | ⟨1, _⟩ => exact h1)
  rw [el, er]

/-- The same for x · W_x. -/
theorem prodX_at (j : S8192x8192.Idx) (off : Nat) (h : off + 1024 ≤ 8192) (h0 : (j 0).val = p.val)
    (h1 : (j 1).val = off + q.val) : val_main_v1 (F := Ideal) x0 x4 j = panel x0 x4 off h p q := by
  rw [val_main_v1_apply]
  unfold panel
  refine Finset.sum_congr rfl fun k _ => ?_
  have el : lidx_main_v1 j k = ix2 p k := funext fun a => Fin.ext (by
    match a with
    | ⟨0, _⟩ => exact h0
    | ⟨1, _⟩ => rfl)
  have er : ridx_main_v1 j k = ix2 k ⟨off + q.val, by have := q.isLt; omega⟩ := funext fun a => Fin.ext (by
    match a with
    | ⟨0, _⟩ => rfl
    | ⟨1, _⟩ => exact h1)
  rw [el, er]

/-! ## The sixteen slices: M_0 … M_7 and X_0 … X_7 -/

theorem panelM0 : val_main_v2 (F := Ideal) x1 x3 (ix2 p q) = panel x1 x3 0 (by omega) p q := by
  rw [val_main_v2_apply]; exact prodM_at x1 x3 p q _ 0 _ rfl (by show q.val = 0 + q.val; omega)
theorem panelM1 : val_main_v3 (F := Ideal) x1 x3 (ix2 p q) = panel x1 x3 1024 (by omega) p q := by
  rw [val_main_v3_apply]; exact prodM_at x1 x3 p q _ 1024 _ rfl rfl
theorem panelM2 : val_main_v4 (F := Ideal) x1 x3 (ix2 p q) = panel x1 x3 2048 (by omega) p q := by
  rw [val_main_v4_apply]; exact prodM_at x1 x3 p q _ 2048 _ rfl rfl
theorem panelM3 : val_main_v5 (F := Ideal) x1 x3 (ix2 p q) = panel x1 x3 3072 (by omega) p q := by
  rw [val_main_v5_apply]; exact prodM_at x1 x3 p q _ 3072 _ rfl rfl
theorem panelM4 : val_main_v6 (F := Ideal) x1 x3 (ix2 p q) = panel x1 x3 4096 (by omega) p q := by
  rw [val_main_v6_apply]; exact prodM_at x1 x3 p q _ 4096 _ rfl rfl
theorem panelM5 : val_main_v7 (F := Ideal) x1 x3 (ix2 p q) = panel x1 x3 5120 (by omega) p q := by
  rw [val_main_v7_apply]; exact prodM_at x1 x3 p q _ 5120 _ rfl rfl
theorem panelM6 : val_main_v8 (F := Ideal) x1 x3 (ix2 p q) = panel x1 x3 6144 (by omega) p q := by
  rw [val_main_v8_apply]; exact prodM_at x1 x3 p q _ 6144 _ rfl rfl
theorem panelM7 : val_main_v9 (F := Ideal) x1 x3 (ix2 p q) = panel x1 x3 7168 (by omega) p q := by
  rw [val_main_v9_apply]; exact prodM_at x1 x3 p q _ 7168 _ rfl rfl

theorem panelX0 : val_main_v10 (F := Ideal) x0 x4 (ix2 p q) = panel x0 x4 0 (by omega) p q := by
  rw [val_main_v10_apply]; exact prodX_at x0 x4 p q _ 0 _ rfl (by show q.val = 0 + q.val; omega)
theorem panelX1 : val_main_v11 (F := Ideal) x0 x4 (ix2 p q) = panel x0 x4 1024 (by omega) p q := by
  rw [val_main_v11_apply]; exact prodX_at x0 x4 p q _ 1024 _ rfl rfl
theorem panelX2 : val_main_v12 (F := Ideal) x0 x4 (ix2 p q) = panel x0 x4 2048 (by omega) p q := by
  rw [val_main_v12_apply]; exact prodX_at x0 x4 p q _ 2048 _ rfl rfl
theorem panelX3 : val_main_v13 (F := Ideal) x0 x4 (ix2 p q) = panel x0 x4 3072 (by omega) p q := by
  rw [val_main_v13_apply]; exact prodX_at x0 x4 p q _ 3072 _ rfl rfl
theorem panelX4 : val_main_v14 (F := Ideal) x0 x4 (ix2 p q) = panel x0 x4 4096 (by omega) p q := by
  rw [val_main_v14_apply]; exact prodX_at x0 x4 p q _ 4096 _ rfl rfl
theorem panelX5 : val_main_v15 (F := Ideal) x0 x4 (ix2 p q) = panel x0 x4 5120 (by omega) p q := by
  rw [val_main_v15_apply]; exact prodX_at x0 x4 p q _ 5120 _ rfl rfl
theorem panelX6 : val_main_v16 (F := Ideal) x0 x4 (ix2 p q) = panel x0 x4 6144 (by omega) p q := by
  rw [val_main_v16_apply]; exact prodX_at x0 x4 p q _ 6144 _ rfl rfl
theorem panelX7 : val_main_v17 (F := Ideal) x0 x4 (ix2 p q) = panel x0 x4 7168 (by omega) p q := by
  rw [val_main_v17_apply]; exact prodX_at x0 x4 p q _ 7168 _ rfl rfl

/-! ## The eight first-layer gates -/

/-- The host's spelling of the logistic function: 1.0 / (1.0 + exp (negate v)). -/
theorem hostLogistic (v : EReal) :
    FloatOps.hostDivf (F := Ideal) (φ := .f32) (FloatOps.ofBits .f32 0x3F800000#32)
      (FloatOps.addf (FloatOps.ofBits .f32 0x3F800000#32) (FloatOps.hostUnary .exp (FloatOps.hostNegf v)))
      = Ideal.logistic v :=
  Cert.Logistic.one_div_one_add_exp_neg v

/-- σ(X_0 + M_0). -/
theorem gate0 : val_main_v24 (F := Ideal) x0 x1 x3 x4 (ix2 p q)
    = Ideal.logistic (panel x0 x4 0 (by omega) p q + panel x1 x3 0 (by omega) p q) := by
  rw [val_main_v24_apply, val_main_v23_apply, val_main_cst_0_apply, val_main_v22_apply, val_main_v21_apply,
    val_main_cst_apply, val_main_v20_apply, val_main_v19_apply, val_main_v18_apply, panelX0, panelM0]
  exact hostLogistic _

/-- relu (X_1 + M_1). -/
theorem gate1 : val_main_v26 (F := Ideal) x0 x1 x3 x4 (ix2 p q)
    = relu (panel x0 x4 1024 (by omega) p q + panel x1 x3 1024 (by omega) p q) := by
  rw [val_main_v26_apply, val_main_call0_v0_apply, val_main_call0_cst_apply, val_main_v25_apply, panelX1, panelM1]
  rfl

/-- σ(X_2 + M_2). -/
theorem gate2 : val_main_v33 (F := Ideal) x0 x1 x3 x4 (ix2 p q)
    = Ideal.logistic (panel x0 x4 2048 (by omega) p q + panel x1 x3 2048 (by omega) p q) := by
  rw [val_main_v33_apply, val_main_v32_apply, val_main_cst_2_apply, val_main_v31_apply, val_main_v30_apply,
    val_main_cst_1_apply, val_main_v29_apply, val_main_v28_apply, val_main_v27_apply, panelX2, panelM2]
  exact hostLogistic _

/-- relu (X_3 · M_3). -/
theorem gate3 : val_main_v35 (F := Ideal) x0 x1 x3 x4 (ix2 p q)
    = relu (panel x0 x4 3072 (by omega) p q * panel x1 x3 3072 (by omega) p q) := by
  rw [val_main_v35_apply, val_main_call1_v0_apply, val_main_call1_cst_apply, val_main_v34_apply, panelX3, panelM3]
  rfl

/-- tanh (X_4 + M_4). -/
theorem gate4 : val_main_v37 (F := Ideal) x0 x1 x3 x4 (ix2 p q)
    = Ideal.tanh (panel x0 x4 4096 (by omega) p q + panel x1 x3 4096 (by omega) p q) := by
  rw [val_main_v37_apply, val_main_v36_apply, panelX4, panelM4]
  rfl

/-- σ(X_5 + M_5). -/
theorem gate5 : val_main_v44 (F := Ideal) x0 x1 x3 x4 (ix2 p q)
    = Ideal.logistic (panel x0 x4 5120 (by omega) p q + panel x1 x3 5120 (by omega) p q) := by
  rw [val_main_v44_apply, val_main_v43_apply, val_main_cst_4_apply, val_main_v42_apply, val_main_v41_apply,
    val_main_cst_3_apply, val_main_v40_apply, val_main_v39_apply, val_main_v38_apply, panelX5, panelM5]
  exact hostLogistic _

/-- tanh (X_6 + M_6). -/
theorem gate6 : val_main_v46 (F := Ideal) x0 x1 x3 x4 (ix2 p q)
    = Ideal.tanh (panel x0 x4 6144 (by omega) p q + panel x1 x3 6144 (by omega) p q) := by
  rw [val_main_v46_apply, val_main_v45_apply, panelX6, panelM6]
  rfl

/-- σ(X_7 + M_7). -/
theorem gate7 : val_main_v53 (F := Ideal) x0 x1 x3 x4 (ix2 p q)
    = Ideal.logistic (panel x0 x4 7168 (by omega) p q + panel x1 x3 7168 (by omega) p q) := by
  rw [val_main_v53_apply, val_main_v52_apply, val_main_cst_6_apply, val_main_v51_apply, val_main_v50_apply,
    val_main_cst_5_apply, val_main_v49_apply, val_main_v48_apply, val_main_v47_apply, panelX7, panelM7]
  exact hostLogistic _

/-! ## The two results -/

/-- The second result, the new cell state, at an entry. -/
theorem newC_at : val_main_v69 (F := Ideal) x0 x1 x2 x3 x4 (ix2 p q) = newCAt x0 x1 x2 x3 x4 p q := by
  rw [val_main_v69_apply, val_main_v68_apply, val_main_v67_apply, val_main_v55_apply, val_main_v54_apply,
    val_main_v57_apply, val_main_v56_apply, gate0, gate1, gate2, gate3]
  rfl

/-- The second-layer logistic gate σ(tanh (X_6 + M_6) + σ(X_7 + M_7)). -/
theorem gate67 : val_main_v66 (F := Ideal) x0 x1 x3 x4 (ix2 p q)
    = Ideal.logistic (Ideal.tanh (panel x0 x4 6144 (by omega) p q + panel x1 x3 6144 (by omega) p q)
        + Ideal.logistic (panel x0 x4 7168 (by omega) p q + panel x1 x3 7168 (by omega) p q)) := by
  rw [val_main_v66_apply, val_main_v65_apply, val_main_cst_8_apply, val_main_v64_apply, val_main_v63_apply,
    val_main_cst_7_apply, val_main_v62_apply, val_main_v61_apply, val_main_v60_apply, gate6, gate7]
  exact hostLogistic _

/-- The first result, the new hidden state, at an entry. -/
theorem newM_at : val_main_v73 (F := Ideal) x0 x1 x2 x3 x4 (ix2 p q) = newMAt x0 x1 x2 x3 x4 p q := by
  rw [val_main_v73_apply, val_main_v72_apply, newC_at, val_main_v71_apply, val_main_v70_apply, val_main_v59_apply,
    val_main_v58_apply, gate4, gate5, gate67]
  rfl

/-- The reference's second result is the specification's new cell state. -/
theorem newC_eq : val_main_v69 (F := Ideal) x0 x1 x2 x3 x4 = newC x0 x1 x2 x3 x4 := by
  funext i
  obtain ⟨p, q, rfl⟩ : ∃ (p : Fin 8192) (q : Fin 1024), i = ix2 p q := ⟨i 0, i 1, eq_ix2 i⟩
  exact newC_at x0 x1 x2 x3 x4 p q

/-- The reference's first result is the specification's new hidden state. -/
theorem newM_eq : val_main_v73 (F := Ideal) x0 x1 x2 x3 x4 = newM x0 x1 x2 x3 x4 := by
  funext i
  obtain ⟨p, q, rfl⟩ : ∃ (p : Fin 8192) (q : Fin 1024), i = ix2 p q := ⟨i 0, i 1, eq_ix2 i⟩
  exact newM_at x0 x1 x2 x3 x4 p q

end Cert.ReferenceIdeal.Cell

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KernelCell.lean ====
/-
  The kernel's body, read entry by entry.

  At one grid point the body holds a band of 128 rows of x, m and c and the two whole weight matrices.  For each of the
  eight column panels it loads the 1024 × 1024 panel of each weight matrix (a rectangle of the staged matrix at column
  offset 1024·g), multiplies the band of m and the band of x by it on the matrix unit starting from zero, and applies the
  cell's functions.  Over the extended reals a change of float format is the identity and a product into zeros is the
  plain sum of products, so each of the sixteen products, read at an entry (p, q) of the band, is the specification's
  panel sum for the band; the rest of the body is pointwise.  Hence the two blocks the body stores are the
  specification's two arrays computed from the band.
-/
import proofs.«103168_j14834817040407_2_alg».proof.Proof.Gen.KernelIdeal.Frame
import proofs.«103168_j14834817040407_2_alg».proof.Proof.CellSpec
import proofs.«103168_j14834817040407_2_alg».proof.Proof.LibMatmulNN
import Idealize.ShloMosaic.Lib.Pipeline.Value
import Idealize.ShloMosaic.Lib.ValueIdx

noncomputable section

namespace Cert.KernelIdeal.Cell

open Cert.KernelIdeal Cert.KernelIdeal.Gen Idealize.ShloMosaic Idealize.ShloMosaic.ValueIdx Cert.NasCell

theorem hz : (![0, 0] : Fin 2 → Nat) = fun _ => 0 := funext fun a => by fin_cases a <;> rfl

/-- The body's products all carry one dimension record: the plain 128 × 1024 by 1024 × 1024 product. -/
theorem dims_plain : dot_S128x1024_S1024x1024_S128x1024_1_0_0_1_n_n = DotDims.plain 128 1024 1024 := rfl

/-- A pointwise tanh and a pointwise logistic at an entry. -/
theorem tanh_at {s : Shape} {φ : FTy} (a : FVec Ideal s φ) (i : s.Idx) : Idealize.ShloMosaic.tanh a i = Ideal.tanh (a i) := rfl
theorem logistic_at {s : Shape} {φ : FTy} (a : FVec Ideal s φ) (i : s.Idx) :
    Idealize.ShloMosaic.logistic a i = Ideal.logistic (a i) := rfl

/-- ONE PRODUCT OF THE BODY at the entry (p, q) of the band: the band `a` (cast to the narrow format), times the panel of
    the staged matrix `w` loaded at column offset `off`, into zeros, is the specification's panel sum. -/
theorem product_at (a : Vec Ideal S128x1024 .f32) (w : Vec Ideal S1024x8192 .bf16) (off : Nat) (h : off + 1024 ≤ 8192)
    (inb : ∀ d, (![0, off] : Fin 2 → Nat) d + S1024x1024.size d ≤ S1024x8192.size d) (p : Fin 128) (q : Fin 1024) :
    matmul (F := Ideal) dot_S128x1024_S1024x1024_S128x1024_1_0_0_1_n_n none
        (truncf .bf16 a bitsLt_bf16_f32 : FVec Ideal S128x1024 .bf16)
        (shapeCast S1024x1024 (View.ld w (Rect.unit (s := S1024x8192) ![0, off] S1024x1024.size inb))
          shapeCasts_S1024x1024_S1024x1024 : FVec Ideal S1024x1024 .bf16)
        (constant (F := Ideal) S128x1024 .f32 0x00000000#32) (ix2 p q)
      = panel a w off h p q := by
  refine (Cert.MatmulNN.matmul_zero_apply _ dims_plain none _ _ p q).trans ?_
  unfold panel
  refine Finset.sum_congr rfl fun k _ => ?_
  have e : (shapeCast S1024x1024 (View.ld w (Rect.unit (s := S1024x8192) ![0, off] S1024x1024.size inb))
        shapeCasts_S1024x1024_S1024x1024 : FVec Ideal S1024x1024 .bf16) (ix2 k q)
      = w (ix2 k ⟨off + q.val, by have := q.isLt; omega⟩) := by
    refine (congrFun (shapeCast_self (s := S1024x1024) _ _) (ix2 k q)).trans ?_
    show w ((Rect.unit (s := S1024x8192) ![0, off] S1024x1024.size inb).idx (ix2 k q)) = _
    congr 1
    funext d
    apply Fin.ext
    match d with
    | ⟨0, _⟩ => simp only [LoadRect.idx_apply, Rect.off_unit, Rect.stride_unit]; show 0 + 1 * k.val = k.val; omega
    | ⟨1, _⟩ => simp only [LoadRect.idx_apply, Rect.off_unit, Rect.stride_unit]; show off + 1 * q.val = off + q.val; omega
  exact congrArg (a (ix2 p k) * ·) e

variable (x0 x1 x2 : Vec Ideal S128x1024 .f32) (x3 x4 : Vec Ideal S1024x8192 .bf16) (p : Fin 128) (q : Fin 1024)

/-- The value the body stores to the second output, at an entry: the new cell state computed from the band. -/
theorem cellPayload_at :
    k0_pay6 (k0_pay2 x0) (k0_pay3 x1) x2
        (k0_pay4 x0 x1 (View.ld x3 r0_1) (View.ld x4 r0_1) (View.ld x3 r0_2) (View.ld x4 r0_2))
        (k0_pay5 x0 x1 (View.ld x3 r0_3) (View.ld x4 r0_3)) (View.ld x3 r0_4) (View.ld x4 r0_4) (ix2 p q)
      = newCAt x0 x1 x2 x3 x4 p q := by
  unfold k0_pay6 k0_pay4 k0_pay5 k0_pay2 k0_pay3
  simp only [mulf_apply, addf_apply, maximumf_apply, tanh_at, logistic_at, broadcast_apply]
  rw [product_at x1 x3 0 (by omega) _ p q, product_at x0 x4 0 (by omega) _ p q,
    product_at x1 x3 1024 (by omega) _ p q, product_at x0 x4 1024 (by omega) _ p q,
    product_at x1 x3 2048 (by omega) _ p q, product_at x0 x4 2048 (by omega) _ p q,
    product_at x1 x3 3072 (by omega) _ p q, product_at x0 x4 3072 (by omega) _ p q]
  rfl

/-- The value the body stores to the first output, at an entry: the new hidden state computed from the band. -/
theorem hiddenPayload_at :
    k0_pay1 (k0_pay2 x0) (k0_pay3 x1)
        (k0_pay6 (k0_pay2 x0) (k0_pay3 x1) x2
          (k0_pay4 x0 x1 (View.ld x3 r0_1) (View.ld x4 r0_1) (View.ld x3 r0_2) (View.ld x4 r0_2))
          (k0_pay5 x0 x1 (View.ld x3 r0_3) (View.ld x4 r0_3)) (View.ld x3 r0_4) (View.ld x4 r0_4))
        (k0_pay7 (k0_pay2 x0) (k0_pay3 x1) (View.ld x3 r0_5) (View.ld x4 r0_5) (View.ld x3 r0_6) (View.ld x4 r0_6))
        (k0_pay8 (View.ld x3 r0_7)) (View.ld x4 r0_7) (View.ld x3 r0_8) (View.ld x4 r0_8) (ix2 p q)
      = newMAt x0 x1 x2 x3 x4 p q := by
  unfold k0_pay1 k0_pay7 k0_pay8
  simp only [mulf_apply, addf_apply, maximumf_apply, tanh_at, logistic_at, broadcast_apply]
  rw [cellPayload_at x0 x1 x2 x3 x4 p q]
  unfold k0_pay2 k0_pay3
  rw [product_at x1 x3 4096 (by omega) _ p q, product_at x0 x4 4096 (by omega) _ p q,
    product_at x1 x3 5120 (by omega) _ p q, product_at x0 x4 5120 (by omega) _ p q,
    product_at x1 x3 6144 (by omega) _ p q, product_at x0 x4 6144 (by omega) _ p q,
    product_at x1 x3 7168 (by omega) _ p q, product_at x0 x4 7168 (by omega) _ p q]
  rfl

/-- What the body leaves in the second output's buffer, at an entry. -/
theorem out6_at : out0_6 x0 x1 x2 x3 x4 (ix2 p q) = newCAt x0 x1 x2 x3 x4 p q := by
  unfold out0_6
  rw [View.canon_unit_zero hz]
  simp only [View.ld_unit_zero (S := S128x1024) hz]
  exact cellPayload_at x0 x1 x2 x3 x4 p q

/-- What the body leaves in the first output's buffer, at an entry. -/
theorem out5_at : out0_5 x0 x1 x2 x3 x4 (ix2 p q) = newMAt x0 x1 x2 x3 x4 p q := by
  unfold out0_5
  rw [View.canon_unit_zero hz]
  simp only [View.ld_unit_zero (S := S128x1024) hz]
  exact hiddenPayload_at x0 x1 x2 x3 x4 p q

end Cert.KernelIdeal.Cell

end
-- ==== Proof.KernelArrays.lean ====
/-
  From the blocks to the whole arrays.

  The grid has 64 points; point t stages rows 128·t … 128·t + 127 of x, m and c, the two whole weight matrices (cast
  to the narrow format by the host before the call: over the extended reals, the same numbers), and writes back rows
  128·t … 128·t + 127 of each result.  What the body leaves at a band entry is the specification's function of the
  band, which is the specification's function of the whole arrays at the corresponding row.  The 64 bands tile the
  8192 rows, so after the run each result array is the specification's array.
-/
import proofs.«103168_j14834817040407_2_alg».proof.Proof.Gen.KernelIdeal.Value
import proofs.«103168_j14834817040407_2_alg».proof.Proof.KernelCell
import Idealize.ShloMosaic.Lib.Pipeline.Value
import Idealize.ShloMosaic.Lib.StableHlo.Run
import Idealize.ShloMosaic.Lib.Tactic

noncomputable section

namespace Cert.KernelIdeal.Arrays

open Cert.KernelIdeal Cert.KernelIdeal.Gen Cert.KernelIdeal.Cell Idealize.ShloMosaic Idealize.ShloMosaic.TcCoe
open Idealize.ShloMosaic.ValueIdx Idealize.SL.Sem Cert.NasCell
open Idealize.ShloMosaic.Pipeline (Dat)

variable (m : (ℓ : Loc nD τ sig) → Buf (Elt Ideal) ℓ) (ρ : Dev nD → PrngReg)

/-! ## Where each window's block sits -/

/-- The printed index maps over the 64 points: the row-band windows (x, m, c and both results) sit at block row t,
    block column 0; the weight windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 64 := by
  have h := t.isLt
  have hN : cfg0.N = 64 := N_0
  omega

/-- The band of x staged at point t: entry (p, k) is x at row 128·t + p. -/
theorem bandX (c : Dev nD) (t : Fin cfg0.N) (p : Fin 128) (k : Fin 1024) :
    (iblk m c 0 t : Vec Ideal S128x1024 .f32) (ix2 p k)
      = (m ((c : Thread nD τ).loc main_arg0) : S8192x1024.Idx → Elt Ideal .f32)
          (ix2 ⟨128 * t.val + p.val, by have := point_lt t; have := p.isLt; omega⟩ k) := by
  obtain ⟨e0, e1, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 128 + 1 * p.val = 128 * t.val + p.val; rw [e0]; omega
  | ⟨1, _⟩ => show win0_0.index t 1 * 1024 + 1 * k.val = k.val; rw [e1]; omega

/-- The band of m staged at point t. -/
theorem bandM (c : Dev nD) (t : Fin cfg0.N) (p : Fin 128) (k : Fin 1024) :
    (iblk m c 1 t : Vec Ideal S128x1024 .f32) (ix2 p k)
      = (m ((c : Thread nD τ).loc main_arg1) : S8192x1024.Idx → Elt Ideal .f32)
          (ix2 ⟨128 * t.val + p.val, by have := point_lt t; have := p.isLt; omega⟩ k) := by
  obtain ⟨-, -, e0, e1, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 128 + 1 * p.val = 128 * t.val + p.val; rw [e0]; omega
  | ⟨1, _⟩ => show win0_1.index t 1 * 1024 + 1 * k.val = k.val; rw [e1]; omega

/-- The band of c staged at point t. -/
theorem bandC (c : Dev nD) (t : Fin cfg0.N) (p : Fin 128) (k : Fin 1024) :
    (iblk m c 2 t : Vec Ideal S128x1024 .f32) (ix2 p k)
      = (m ((c : Thread nD τ).loc main_arg2) : S8192x1024.Idx → Elt Ideal .f32)
          (ix2 ⟨128 * t.val + p.val, by have := point_lt t; have := p.isLt; omega⟩ k) := by
  obtain ⟨-, -, -, -, e0, e1, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 128 + 1 * p.val = 128 * t.val + p.val; rw [e0]; omega
  | ⟨1, _⟩ => show win0_2.index t 1 * 1024 + 1 * k.val = k.val; rw [e1]; omega

/-- The host's cast of W_m before the call changes no number over the extended reals. -/
theorem castWm (c : Dev nD) : (V m c main_v0 : S1024x8192.Idx → Elt Ideal .bf16)
    = (m ((c : Thread nD τ).loc main_arg3) : S1024x8192.Idx → Elt Ideal .f32) := by
  dsimp only [Gen.V, Gen.hostOps0]; after_results; rfl

/-- The same for W_x. -/
theorem castWx (c : Dev nD) : (V m c main_v1 : S1024x8192.Idx → Elt Ideal .bf16)
    = (m ((c : Thread nD τ).loc main_arg4) : S1024x8192.Idx → Elt Ideal .f32) := by
  dsimp only [Gen.V, Gen.hostOps0]; after_results; rfl

/-- The staged W_m at every point is the whole matrix. -/
theorem stagedWm (c : Dev nD) (t : Fin cfg0.N) :
    (iblk m c 3 t : Vec Ideal S1024x8192 .bf16) = (m ((c : Thread nD τ).loc main_arg3) : S1024x8192.Idx → Elt Ideal .f32) := by
  obtain ⟨-, -, -, -, -, -, e0, e1, -⟩ := idx_facts t
  funext y
  unfold iblk
  rw [View.read_apply]
  show V m c main_v0 _ = m ((c : Thread nD τ).loc main_arg3) y
  rw [castWm]
  congr 1
  funext a
  apply Fin.ext
  match a with
  | ⟨0, _⟩ => show win0_3.index t 0 * 1024 + 1 * (y 0).val = (y 0).val; rw [e0]; omega
  | ⟨1, _⟩ => show win0_3.index t 1 * 8192 + 1 * (y 1).val = (y 1).val; rw [e1]; omega

/-- The staged W_x at every point is the whole matrix. -/
theorem stagedWx (c : Dev nD) (t : Fin cfg0.N) :
    (iblk m c 4 t : Vec Ideal S1024x8192 .bf16) = (m ((c : Thread nD τ).loc main_arg4) : S1024x8192.Idx → Elt Ideal .f32) := by
  obtain ⟨-, -, -, -, -, -, -, -, e0, e1, -⟩ := idx_facts t
  funext y
  unfold iblk
  rw [View.read_apply]
  show V m c main_v1 _ = m ((c : Thread nD τ).loc main_arg4) y
  rw [castWx]
  congr 1
  funext a
  apply Fin.ext
  match a with
  | ⟨0, _⟩ => show win0_4.index t 0 * 1024 + 1 * (y 0).val = (y 0).val; rw [e0]; omega
  | ⟨1, _⟩ => show win0_4.index t 1 * 8192 + 1 * (y 1).val = (y 1).val; rw [e1]; omega

/-! ## A band's block is a band of the whole array -/

/-- If xb, mb, cb are rows 128·t + · of X, M, C, then what the body leaves in the second output's buffer at a band
    entry j is the whole new cell state at the entry i on row 128·t + (row of j), same column. -/
theorem band_newC (X M C : S8192x1024.Idx → EReal) (xb mb cb : Vec Ideal S128x1024 .f32)
    (wm wx : Vec Ideal S1024x8192 .bf16) (t : Nat) (ht : t < 64)
    (hx : ∀ (p : Fin 128) (k : Fin 1024), xb (ix2 p k) = X (ix2 ⟨128 * t + p.val, by have := p.isLt; omega⟩ k))
    (hm : ∀ (p : Fin 128) (k : Fin 1024), mb (ix2 p k) = M (ix2 ⟨128 * t + p.val, by have := p.isLt; omega⟩ k))
    (hc : ∀ (p : Fin 128) (k : Fin 1024), cb (ix2 p k) = C (ix2 ⟨128 * t + p.val, by have := p.isLt; omega⟩ k))
    (j : S128x1024.Idx) (i : S8192x1024.Idx) (hi0 : (i 0).val = 128 * t + (j 0).val) (hi1 : (i 1).val = (j 1).val) :
    out0_6 xb mb cb wm wx j = newC X M C wm wx i := by
  obtain ⟨p, q, rfl⟩ : ∃ (p : Fin 128) (q : Fin 1024), j = ix2 p q := ⟨j 0, j 1, eq_ix2 j⟩
  have hlt : 128 * t + p.val < 8192 := by have := p.isLt; omega
  obtain ⟨r, s, rfl⟩ : ∃ (r : Fin 8192) (s : Fin 1024), i = ix2 r s := ⟨i 0, i 1, eq_ix2 i⟩
  obtain rfl : r = ⟨128 * t + p.val, hlt⟩ := Fin.ext hi0
  obtain rfl : s = q := Fin.ext hi1
  rw [out6_at]
  exact newCAt_band X M C xb mb cb wm wx p _ s (hx p) (hm p) (hc p s)

/-- The same for the first output's buffer and the new hidden state. -/
theorem band_newM (X M C : S8192x1024.Idx → EReal) (xb mb cb : Vec Ideal S128x1024 .f32)
    (wm wx : Vec Ideal S1024x8192 .bf16) (t : Nat) (ht : t < 64)
    (hx : ∀ (p : Fin 128) (k : Fin 1024), xb (ix2 p k) = X (ix2 ⟨128 * t + p.val, by have := p.isLt; omega⟩ k))
    (hm : ∀ (p : Fin 128) (k : Fin 1024), mb (ix2 p k) = M (ix2 ⟨128 * t + p.val, by have := p.isLt; omega⟩ k))
    (hc : ∀ (p : Fin 128) (k : Fin 1024), cb (ix2 p k) = C (ix2 ⟨128 * t + p.val, by have := p.isLt; omega⟩ k))
    (j : S128x1024.Idx) (i : S8192x1024.Idx) (hi0 : (i 0).val = 128 * t + (j 0).val) (hi1 : (i 1).val = (j 1).val) :
    out0_5 xb mb cb wm wx j = newM X M C wm wx i := by
  obtain ⟨p, q, rfl⟩ : ∃ (p : Fin 128) (q : Fin 1024), j = ix2 p q := ⟨j 0, j 1, eq_ix2 j⟩
  have hlt : 128 * t + p.val < 8192 := by have := p.isLt; omega
  obtain ⟨r, s, rfl⟩ : ∃ (r : Fin 8192) (s : Fin 1024), i = ix2 r s := ⟨i 0, i 1, eq_ix2 i⟩
  obtain rfl : r = ⟨128 * t + p.val, hlt⟩ := Fin.ext hi0
  obtain rfl : s = q := Fin.ext hi1
  rw [out5_at]
  exact newMAt_band X M C xb mb cb wm wx p _ s (hx p) (hm p) (hc p s)

/-! ## The two result arrays -/

/-- The new hidden state of the launch contents, as the first result's array. -/
def hiddenArr (c : Dev nD) : Buf (Elt Ideal) ((c : Thread nD τ).loc main_v2_0) :=
  newM (m ((c : Thread nD τ).loc main_arg0)) (m ((c : Thread nD τ).loc main_arg1)) (m ((c : Thread nD τ).loc main_arg2))
    (m ((c : Thread nD τ).loc main_arg3)) (m ((c : Thread nD τ).loc main_arg4))

/-- The new cell state of the launch contents, as the second result's array. -/
def cellArr (c : Dev nD) : Buf (Elt Ideal) ((c : Thread nD τ).loc main_v2_1) :=
  newC (m ((c : Thread nD τ).loc main_arg0)) (m ((c : Thread nD τ).loc main_arg1)) (m ((c : Thread nD τ).loc main_arg2))
    (m ((c : Thread nD τ).loc main_arg3)) (m ((c : Thread nD τ).loc main_arg4))

/-- Point t writes back rows 128·t … of the new hidden state. -/
theorem flushedHidden (c : Dev nD) (t : Fin cfg0.N) :
    (dats m 0 c).flushed 5 t = ((cfg0.win 5).blk t).view.read (Elt Ideal) (hiddenArr m c) := by
  obtain ⟨-, -, -, -, -, -, -, -, -, -, e0, e1, -⟩ := idx_facts t
  rw [Value.flushed5, stagedWm, stagedWx]
  funext j
  refine band_newM _ _ _ _ _ _ _ _ t.val (point_lt t) (bandX m c t) (bandM m c t) (bandC m c t) j _ ?_ ?_
  · show win0_5.index t 0 * 128 + 1 * (j 0).val = 128 * t.val + (j 0).val; rw [e0]; omega
  · show win0_5.index t 1 * 1024 + 1 * (j 1).val = (j 1).val; rw [e1]; omega

/-- Point t writes back rows 128·t … of the new cell state. -/
theorem flushedCell (c : Dev nD) (t : Fin cfg0.N) :
    (dats m 0 c).flushed 6 t = ((cfg0.win 6).blk t).view.read (Elt Ideal) (cellArr m c) := by
  obtain ⟨-, -, -, -, -, -, -, -, -, -, -, -, e0, e1⟩ := idx_facts t
  rw [Value.flushed6, stagedWm, stagedWx]
  funext j
  refine band_newC _ _ _ _ _ _ _ _ t.val (point_lt t) (bandX m c t) (bandM m c t) (bandC m c t) j _ ?_ ?_
  · show win0_6.index t 0 * 128 + 1 * (j 0).val = 128 * t.val + (j 0).val; rw [e0]; omega
  · show win0_6.index t 1 * 1024 + 1 * (j 1).val = (j 1).val; rw [e1]; omega

/-- An index is in point t's block of the first result iff each coordinate is in the block's range. -/
theorem mem_blk5 (t : Fin cfg0.N) (i : S8192x1024.Idx) :
    i ∈ ((cfg0.win 5).blk t).view.set ↔ ∀ a : Fin 2, win0_5.index t a * S128x1024.size a ≤ (i a).val
      ∧ (i a).val < win0_5.index t a * S128x1024.size a + S128x1024.size a := by
  show i ∈ ((View.whole main_v2_0).slice (win0_5.rect t)).set ↔ _
  rw [View.set_slice_whole, Rect.mem_set_unit]
  exact Iff.rfl

theorem mem_blk6 (t : Fin cfg0.N) (i : S8192x1024.Idx) :
    i ∈ ((cfg0.win 6).blk t).view.set ↔ ∀ a : Fin 2, win0_6.index t a * S128x1024.size a ≤ (i a).val
      ∧ (i a).val < win0_6.index t a * S128x1024.size a + S128x1024.size a := by
  show i ∈ ((View.whole main_v2_1).slice (win0_6.rect t)).set ↔ _
  rw [View.set_slice_whole, Rect.mem_set_unit]
  exact Iff.rfl

/-- Row r lies in the band of point r / 128: the 64 bands tile the first result. -/
theorem coverHidden (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 64 := N_0
  let t : Fin cfg0.N := ⟨(i 0).val / 128, by rw [hN]; omega⟩
  obtain ⟨-, -, -, -, -, -, -, -, -, -, e0, e1, -⟩ := idx_facts t
  have et : t.val = (i 0).val / 128 := rfl
  refine ⟨t, flush0_5 t, ?_⟩
  rw [mem_blk5]
  intro a
  match a with
  | ⟨0, _⟩ => show win0_5.index t 0 * 128 ≤ (i 0).val ∧ (i 0).val < win0_5.index t 0 * 128 + 128; rw [e0, et]; omega
  | ⟨1, _⟩ => show win0_5.index t 1 * 1024 ≤ (i 1).val ∧ (i 1).val < win0_5.index t 1 * 1024 + 1024; rw [e1]; omega

/-- And the second. -/
theorem coverCell (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 64 := N_0
  let t : Fin cfg0.N := ⟨(i 0).val / 128, by rw [hN]; omega⟩
  obtain ⟨-, -, -, -, -, -, -, -, -, -, -, -, e0, e1⟩ := idx_facts t
  have et : t.val = (i 0).val / 128 := rfl
  refine ⟨t, flush0_6 t, ?_⟩
  rw [mem_blk6]
  intro a
  match a with
  | ⟨0, _⟩ => show win0_6.index t 0 * 128 ≤ (i 0).val ∧ (i 0).val < win0_6.index t 0 * 128 + 128; rw [e0, et]; omega
  | ⟨1, _⟩ => show win0_6.index t 1 * 1024 ≤ (i 1).val ∧ (i 1).val < win0_6.index t 1 * 1024 + 1024; rw [e1]; omega

/-- After the run the first result's array is the new hidden state. -/
theorem finalHidden (c : Dev nD) : (dats m 0 c).arrAt 5 cfg0.N = hiddenArr m c :=
  (dats m 0 c).arrAt_eq_of_cover 5 (hiddenArr m c) (fun t _ => flushedHidden m c t) coverHidden

/-- After the run the second result's array is the new cell state. -/
theorem finalCell (c : Dev nD) : (dats m 0 c).arrAt 6 cfg0.N = cellArr m c :=
  (dats m 0 c).arrAt_eq_of_cover 6 (cellArr m c) (fun t _ => flushedCell m c t) coverCell

/-- The kernel's run, read: both results at the specification's arrays of the launch contents, the arguments kept. -/
theorem run : θ_run defs (onTc (τ := τ) (main (F := Ideal))) ⟨m, fun _ => 0, ρ⟩ fun r => ∀ c : Dev nD,
      r.2.mem ((c : Thread nD τ).loc main_v2_0) = hiddenArr m c
      ∧ r.2.mem ((c : Thread nD τ).loc main_v2_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (finalHidden m c), (h c).2.1.trans (finalCell m c), (h c).2.2⟩)
    (Cert.KernelIdeal.Value.run_blocks m ρ)

end Cert.KernelIdeal.Arrays

end
-- ==== Proof.lean ====
/-
  The fused cell kernel computes the same two arrays as the reference, over the extended reals.

  Both programs take x, m, c (8192 × 1024) and the weights W_m, W_x (1024 × 8192).  The reference forms the two full
  products m · W_m and x · W_x, slices each into eight column panels M_g, X_g of width 1024, and applies

      new_c = tanh (tanh (σ(X_0 + M_0) · relu (X_1 + M_1)) + c) · tanh (σ(X_2 + M_2) + relu (X_3 · M_3)),
      new_m = tanh (new_c · tanh (tanh (tanh (X_4 + M_4) · σ(X_5 + M_5)) + σ(tanh (X_6 + M_6) + σ(X_7 + M_7))))

  to whole arrays.  The kernel never forms the full products: at each of 64 grid points it takes a band of 128 rows of
  x, m, c, multiplies the band by each 1024-column panel of each (narrow-format) weight matrix, applies the same
  functions in the same order, and writes the band of both results back.

  Over the extended reals a change of float format is the identity, a matrix-unit product into zeros and the host's
  product are both the plain sum Σ_k a[r,k]·w[k,col], the host's 1/(1 + e^(-v)) with the literal 1.0 is the logistic
  function, and relu is the maximum with zero on both sides.  An entry of a panel of the product depends only on one
  row of the left factor, so a band's panel is the band of the panel.  Hence both programs end with the two arrays of
  CellSpec.lean; no law that could fail at an infinity (no distributivity, no cancellation) is used, and the
  finiteness precondition is never opened.

  The modules: CellSpec (the mathematics), RefCell (the reference is it, entry by entry), KernelCell (the body's two
  stored blocks are it for a band), KernelArrays (the 64 bands tile the arrays; the kernel's run), and the assembly
  below.  The three frames are the generated ones (the reference's is its generated run with the results dropped); the
  idealization rewrote no operation, so nothing is owed for it.
-/
import proofs.«103168_j14834817040407_2_alg».proof.Defs
import proofs.«103168_j14834817040407_2_alg».proof.Proof.Gen.Kernel
import proofs.«103168_j14834817040407_2_alg».proof.Proof.Gen.Kernel.Skeleton
import proofs.«103168_j14834817040407_2_alg».proof.Proof.Gen.Kernel.Launch
import proofs.«103168_j14834817040407_2_alg».proof.Proof.Gen.Kernel.Points
import proofs.«103168_j14834817040407_2_alg».proof.Proof.Gen.Kernel.Frame
import proofs.«103168_j14834817040407_2_alg».proof.Proof.Gen.KernelIdeal
import proofs.«103168_j14834817040407_2_alg».proof.Proof.Gen.KernelIdeal.Skeleton
import proofs.«103168_j14834817040407_2_alg».proof.Proof.Gen.KernelIdeal.Launch
import proofs.«103168_j14834817040407_2_alg».proof.Proof.Gen.KernelIdeal.Points
import proofs.«103168_j14834817040407_2_alg».proof.Proof.Gen.KernelIdeal.Frame
import proofs.«103168_j14834817040407_2_alg».proof.Proof.Gen.ReferenceIdeal
import proofs.«103168_j14834817040407_2_alg».proof.Proof.Gen.KernelIdeal.Value
import proofs.«103168_j14834817040407_2_alg».proof.Proof.Gen.ReferenceIdeal.Run
import proofs.«103168_j14834817040407_2_alg».proof.Proof.Gen.ReferenceIdeal.Read
import proofs.«103168_j14834817040407_2_alg».proof.Proof.Gen.Pre_finite_inputs
import proofs.«103168_j14834817040407_2_alg».proof.Proof.RefCell
import proofs.«103168_j14834817040407_2_alg».proof.Proof.KernelArrays
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the five arguments, the kernel ends with the new hidden state and the new cell state
    of CellSpec.lean in its two result arrays (KernelArrays.lean), and the reference's two results are the same two
    arrays (RefCell.lean). -/
theorem algebraic : Cert.algebraic_KernelIdeal_ReferenceIdeal := by
  intro m ρ m' ρ' _ hagree
  refine ⟨fun c => Cert.KernelIdeal.Arrays.hiddenArr m c, fun c => Cert.KernelIdeal.Arrays.cellArr m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4⟩ := hagree c
    rw [Cert.ReferenceIdeal.Read.val_main_v73_eq, Cert.ReferenceIdeal.Cell.newM_eq, e0, e1, e2, e3, e4]
    rfl
  · obtain ⟨e0, e1, e2, e3, e4⟩ := hagree c
    rw [Cert.ReferenceIdeal.Read.val_main_v69_eq, Cert.ReferenceIdeal.Cell.newC_eq, e0, e1, e2, e3, e4]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
